-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S1024x768 : Shape := ⟨2, ![1024, 768]⟩
abbrev S768 : Shape := ⟨1, ![768]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S64x1024x768 .f32) (main_arg1 : FVec F S1024x768 .f32) (main_arg2 : FVec F S768 .f32) (main_arg3 : FVec F S768 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S64x1024x768 : Shape := ⟨3, ![64, 1024, 768]⟩
abbrev S1024x768 : Shape := ⟨2, ![1024, 768]⟩
abbrev S768 : Shape := ⟨1, ![768]⟩
abbrev S65536x768 : Shape := ⟨2, ![65536, 768]⟩
abbrev S1x768 : Shape := ⟨2, ![1, 768]⟩
abbrev S4096x768 : Shape := ⟨2, ![4096, 768]⟩
abbrev S4x1024x768 : Shape := ⟨3, ![4, 1024, 768]⟩
abbrev S1x1024x768 : Shape := ⟨3, ![1, 1024, 768]⟩
abbrev S4096 : Shape := ⟨1, ![4096]⟩
abbrev S4096x1 : Shape := ⟨2, ![4096, 1]⟩

abbrev nBuf : Space → Nat
  | .hbm => 10
  | .vmem => 7
  | .smem => 0
  | _ => 0

abbrev bufTy : (tb : Table) → Fin (tcTables nBuf tb) → BufTy
  | .hbm, ⟨0, _⟩ => ⟨S64x1024x768, .f32⟩
  | .hbm, ⟨1, _⟩ => ⟨S1024x768, .f32⟩
  | .hbm, ⟨2, _⟩ => ⟨S768, .f32⟩
  | .hbm, ⟨3, _⟩ => ⟨S768, .f32⟩
  | .hbm, ⟨4, _⟩ => ⟨S65536x768, .f32⟩
  | .hbm, ⟨5, _⟩ => ⟨S1024x768, .bf16⟩
  | .hbm, ⟨6, _⟩ => ⟨S1x768, .f32⟩
  | .hbm, ⟨7, _⟩ => ⟨S1x768, .f32⟩
  | .hbm, ⟨8, _⟩ => ⟨S65536x768, .f32⟩
  | .hbm, ⟨9, _⟩ => ⟨S64x1024x768, .f32⟩
  | .local _ .vmem, ⟨0, _⟩ => ⟨S4096x768, .f32⟩
  | .local _ .vmem, ⟨1, _⟩ => ⟨S4096x768, .f32⟩
  | .local _ .vmem, ⟨2, _⟩ => ⟨S1024x768, .bf16⟩
  | .local _ .vmem, ⟨3, _⟩ => ⟨S1x768, .f32⟩
  | .local _ .vmem, ⟨4, _⟩ => ⟨S1x768, .f32⟩
  | .local _ .vmem, ⟨5, _⟩ => ⟨S4096x768, .f32⟩
  | .local _ .vmem, ⟨6, _⟩ => ⟨S4096x768, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x1024x768_S65536x768 : S64x1024x768.ShapeCasts S65536x768
  bitsLt_bf16_f32 : FTy.bits .bf16 < FTy.bits .f32
  shapeCasts_S768_S1x768 : S768.ShapeCasts S1x768
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  shapeCasts_S4096x768_S4x1024x768 : S4096x768.ShapeCasts S4x1024x768
  shapeCasts_S1024x768_S1x1024x768 : S1024x768.ShapeCasts S1x1024x768
  broadcasts_S1x1024x768_S4x1024x768 : S1x1024x768.Broadcasts S4x1024x768
  shapeCasts_S4x1024x768_S4096x768 : S4x1024x768.ShapeCasts S4096x768
  reduces_S4096x768_S4096 : S4096x768.Reduces [1] S4096
  shapeCasts_S4096_S4096x1 : S4096.ShapeCasts S4096x1
  broadcasts_S4096x1_S4096x768 : S4096x1.Broadcasts S4096x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S4096x768 : S1x768.Broadcasts S4096x768
  shapeCasts_S65536x768_S64x1024x768 : S65536x768.ShapeCasts S64x1024x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S65536x768.size a
  hwx0_0 : ∀ i : grid0.Coords, EltTy.bits .f32 = 32 ∨ (Rect.block (s := S65536x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x768.size a
  hwx0_1 : ∀ i : grid0.Coords, EltTy.bits .bf16 = 32 ∨ (Rect.block (s := S1024x768) S1024x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x768.size a ≤ S65536x768.size a
  hwx0_4 : ∀ i : grid0.Coords, EltTy.bits .f32 = 32 ∨ (Rect.block (s := S65536x768) S4096x768.size (cc0_transform_4 i) (hinb0_4 i)).WholeWords (EltTy.packing .f32)

variable [Facts₀]

abbrev win0_0 : Pipeline.Window sig grid0 :=
  Pipeline.Window.ofSpec (Memref.whole main_v0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x768 : Shape := ⟨3, ![64, 1024, 768]⟩
abbrev S1024x768 : Shape := ⟨2, ![1024, 768]⟩
abbrev S768 : Shape := ⟨1, ![768]⟩
abbrev S1024 : Shape := ⟨1, ![1024]⟩
abbrev S1x1024 : Shape := ⟨2, ![1, 1024]⟩
abbrev S64x1024 : Shape := ⟨2, ![64, 1024]⟩
abbrev S_ : Shape := ⟨0, ![]⟩
abbrev S64x1024x1 : Shape := ⟨3, ![64, 1024, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S1024x768, .f32⟩
  | .hbm, ⟨2, _⟩ => ⟨S768, .f32⟩
  | .hbm, ⟨3, _⟩ => ⟨S768, .f32⟩
  | .hbm, ⟨4, _⟩ => ⟨S1024, .i32⟩
  | .hbm, ⟨5, _⟩ => ⟨S1x1024, .i32⟩
  | .hbm, ⟨6, _⟩ => ⟨S64x1024, .i32⟩
  | .hbm, ⟨7, _⟩ => ⟨S_, .i32⟩
  | .hbm, ⟨8, _⟩ => ⟨S64x1024, .i32⟩
  | .hbm, ⟨9, _⟩ => ⟨S64x1024, .i1⟩
  | .hbm, ⟨10, _⟩ => ⟨S_, .i32⟩
  | .hbm, ⟨11, _⟩ => ⟨S64x1024, .i32⟩
  | .hbm, ⟨12, _⟩ => ⟨S64x1024, .i32⟩
  | .hbm, ⟨13, _⟩ => ⟨S64x1024, .i32⟩
  | .hbm, ⟨14, _⟩ => ⟨S64x1024x1, .i32⟩
  | .hbm, ⟨15, _⟩ => ⟨S1, .i32⟩
  | .hbm, ⟨16, _⟩ => ⟨S_, .i32⟩
  | .hbm, ⟨17, _⟩ => ⟨S64x1024x1, .i32⟩
  | .hbm, ⟨18, _⟩ => ⟨S64x1024x1, .i1⟩
  | .hbm, ⟨19, _⟩ => ⟨S1x1x1, .i32⟩
  | .hbm, ⟨20, _⟩ => ⟨S64x1024x1, .i32⟩
  | .hbm, ⟨21, _⟩ => ⟨S64x1024x1, .i1⟩
  | .hbm, ⟨22, _⟩ => ⟨S64x1024x1, .i1⟩
  | .hbm, ⟨23, _⟩ => ⟨S_, .i1⟩
  | .hbm, ⟨24, _⟩ => ⟨S64x1024, .i1⟩
  | .hbm, ⟨25, _⟩ => ⟨S64x1024x768, .f32⟩
  | .hbm, ⟨26, _⟩ => ⟨S64x1024x768, .i1⟩
  | .hbm, ⟨27, _⟩ => ⟨S_, .f32⟩
  | .hbm, ⟨28, _⟩ => ⟨S64x1024x768, .f32⟩
  | .hbm, ⟨29, _⟩ => ⟨S64x1024x768, .f32⟩
  | .hbm, ⟨30, _⟩ => ⟨S64x1024x768, .f32⟩
  | .hbm, ⟨31, _⟩ => ⟨S_, .f32⟩
  | .hbm, ⟨32, _⟩ => ⟨S64x1024, .f32⟩
  | .hbm, ⟨33, _⟩ => ⟨S64x1024x1, .f32⟩
  | .hbm, ⟨34, _⟩ => ⟨S_, .f32⟩
  | .hbm, ⟨35, _⟩ => ⟨S64x1024x1, .f32⟩
  | .hbm, ⟨36, _⟩ => ⟨S64x1024x1, .f32⟩
  | .hbm, ⟨37, _⟩ => ⟨S64x1024x768, .f32⟩
  | .hbm, ⟨38, _⟩ => ⟨S64x1024x768, .f32⟩
  | .hbm, ⟨39, _⟩ => ⟨S64x1024x768, .f32⟩
  | .hbm, ⟨40, _⟩ => ⟨S_, .f32⟩
  | .hbm, ⟨41, _⟩ => ⟨S64x1024, .f32⟩
  | .hbm, ⟨42, _⟩ => ⟨S64x1024x1, .f32⟩
  | .hbm, ⟨43, _⟩ => ⟨S_, .f32⟩
  | .hbm, ⟨44, _⟩ => ⟨S64x1024x1, .f32⟩
  | .hbm, ⟨45, _⟩ => ⟨S64x1024x1, .f32⟩
  | .hbm, ⟨46, _⟩ => ⟨S64x1024x768, .f32⟩
  | .hbm, ⟨47, _⟩ => ⟨S64x1024x768, .f32⟩
  | .hbm, ⟨48, _⟩ => ⟨S_, .f32⟩
  | .hbm, ⟨49, _⟩ => ⟨S64x1024x1, .f32⟩
  | .hbm, ⟨50, _⟩ => ⟨S64x1024x1, .f32⟩
  | .hbm, ⟨51, _⟩ => ⟨S64x1024x1, .f32⟩
  | .hbm, ⟨52, _⟩ => ⟨S64x1024x768, .f32⟩
  | .hbm, ⟨53, _⟩ => ⟨S64x1024x768, .f32⟩
  | .hbm, ⟨54, _⟩ => ⟨S1x1x768, .f32⟩
  | .hbm, ⟨55, _⟩ => ⟨S64x1024x768, .f32⟩
  | .hbm, ⟨56, _⟩ => ⟨S64x1024x768, .f32⟩
  | .hbm, ⟨57, _⟩ => ⟨S1x1x768, .f32⟩
  | .hbm, ⟨58, _⟩ => ⟨S64x1024x768, .f32⟩
  | .hbm, ⟨59, _⟩ => ⟨S64x1024x768, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S1_S1x1x1_2 : S1.BroadcastsInDim S1x1x1 (![2] : Fin 1 → Fin S1x1x1.rank)
  bcast_S1x1x1_S64x1024x1_0_1_2 : S1x1x1.BroadcastsInDim S64x1024x1 (![0, 1, 2] : Fin 3 → Fin S64x1024x1.rank)
  reducesTo_S64x1024x1_S64x1024_d2 : S64x1024x1.ReducesTo [2] S64x1024
  h_S_ : 0 < S_.numel
  bcast_S64x1024_S64x1024x768_0_1 : S64x1024.BroadcastsInDim S64x1024x768 (![0, 1] : Fin 2 → Fin S64x1024x768.rank)
  bcast_S_S64x1024x768 : S_.BroadcastsInDim S64x1024x768 (![] : Fin 0 → Fin S64x1024x768.rank)
  reducesTo_S64x1024x768_S64x1024_d2 : S64x1024x768.ReducesTo [2] S64x1024
  bcast_S64x1024x1_S64x1024x768_0_1_2 : S64x1024x1.BroadcastsInDim S64x1024x768 (![0, 1, 2] : Fin 3 → Fin S64x1024x768.rank)
  bcast_S768_S1x1x768_2 : S768.BroadcastsInDim S1x1x768 (![2] : Fin 1 → Fin S1x1x768.rank)
  bcast_S1x1x768_S64x1024x768_0_1_2 : S1x1x768.BroadcastsInDim S64x1024x768 (![0, 1, 2] : Fin 3 → Fin S64x1024x768.rank)
  gather_S1024x768_S64x1024x1_S64x1024x768_2_0_n_n_0_2_1768_wf : GatherDims.WF S1024x768 S64x1024x1 S64x1024x768 [2] [0] [] [0] [] 2 ![1, 768]

variable [Facts₀]

def gather_S1024x768_S64x1024x1_S64x1024x768_2_0_n_n_0_2_1768 : GatherDims S1024x768 S64x1024x1 S64x1024x768 where
  offsetDims := [2]
  collapsedSliceDims := [0]
  operandBatchingDims := []
  startIndicesBatchingDims := []
  startIndexMap := [0]
  indexVectorDim := 2
  sliceSizes := ![1, 768]
  wf := gather_S1024x768_S64x1024x1_S64x1024x768_2_0_n_n_0_2_1768_wf

class Facts : Prop extends Facts₀ where

variable [Facts]
-- ==== Proof.Spec.lean ====
/-
  The mathematics both programs compute, stated once over the argument arrays and importing no program.

  For a batch entry `b`, a position `n` and a lane `j` the result is the layer normalization of the row
  `h k = x[b, n, k] + pos[n, k]` (768 lanes), scaled and shifted lane by lane:

      mean h = (∑ k, h k) / 768,   cen h j = h j − mean h,   var h = (∑ k, (cen h k)²) / 768,
      out    = (normalized row at j) · gamma[j] + beta[j].

  The two programs differ in ONE step, how the centred entry is normalized:
  the kernel multiplies by the reciprocal square root, `cen h j · rsqrt (var h + ε)` (`normK`);
  the reference divides by the square root, `cen h j / sqrt (var h + ε)` (`normR`).
  Both literals (768 and ε) are the same binary words on the two sides and are kept as words here.
-/
import Idealize.ShloMosaic.PureOps.Ideal
import Idealize.ShloMosaic.Lib.ValueIdx

noncomputable section

namespace Cert.LN

open Idealize.ShloMosaic Idealize.ShloMosaic.ValueIdx

/-- The activations' shape, the position table's, and a lane vector's. -/
abbrev SX : Shape := ⟨3, ![64, 1024, 768]⟩
abbrev SP : Shape := ⟨2, ![1024, 768]⟩
abbrev SL : Shape := ⟨1, ![768]⟩

/-- The row length as both programs write it: the f32 word of `768.0`. -/
abbrev n768 : EReal := Ideal.ofBits .f32 0x44400000#32
/-- The variance offset as both programs write it: the f32 word nearest `1e-12`. -/
abbrev eps : EReal := Ideal.ofBits .f32 0x2B8CBCCC#32

/-- A row's mean: its sum over the 768 lanes, divided by the row length. -/
def mean (h : Fin 768 → EReal) : EReal := Ideal.div (∑ k : Fin 768, h k) n768
/-- A row's entry with the mean taken off. -/
def cen (h : Fin 768 → EReal) (j : Fin 768) : EReal := h j - mean h
/-- A row's variance: the mean of the squared centred entries. -/
def var (h : Fin 768 → EReal) : EReal := Ideal.div (∑ k : Fin 768, cen h k * cen h k) n768
/-- The kernel's normalization: the centred entry times the reciprocal square root of the offset variance. -/
def normK (h : Fin 768 → EReal) (j : Fin 768) : EReal := cen h j * Ideal.rsqrt (var h + eps)
/-- The reference's normalization: the centred entry divided by the square root of the offset variance. -/
def normR (h : Fin 768 → EReal) (j : Fin 768) : EReal := Ideal.div (cen h j) (Ideal.sqrt (var h + eps))

/-- The row that is normalized at batch entry `b` and position `n`: the activations plus the position's table row. -/
def row (x : SX.Idx → EReal) (p : SP.Idx → EReal) (b : Fin 64) (n : Fin 1024) : Fin 768 → EReal :=
  fun k => x (ix3 b n k) + p (ix2 n k)

/-- The kernel's result array as one function of the four argument arrays. -/
def outK (x : SX.Idx → EReal) (p : SP.Idx → EReal) (g bt : SL.Idx → EReal) : SX.Idx → EReal :=
  fun i => normK (row x p (i 0) (i 1)) (i 2) * g (ix1 (i 2)) + bt (ix1 (i 2))

/-- The reference's result array as one function of the four argument arrays. -/
def outR (x : SX.Idx → EReal) (p : SP.Idx → EReal) (g bt : SL.Idx → EReal) : SX.Idx → EReal :=
  fun i => normR (row x p (i 0) (i 1)) (i 2) * g (ix1 (i 2)) + bt (ix1 (i 2))

theorem outK_ix3 (x : SX.Idx → EReal) (p : SP.Idx → EReal) (g bt : SL.Idx → EReal) (b : Fin 64) (n : Fin 1024) (j : Fin 768) :
    outK x p g bt (ix3 b n j) = normK (row x p b n) j * g (ix1 j) + bt (ix1 j) := rfl

theorem outR_ix3 (x : SX.Idx → EReal) (p : SP.Idx → EReal) (g bt : SL.Idx → EReal) (b : Fin 64) (n : Fin 1024) (j : Fin 768) :
    outR x p g bt (ix3 b n j) = normR (row x p b n) j * g (ix1 j) + bt (ix1 j) := rfl

/-- An array is `outK` of the arguments as soon as it is so at every triple of coordinates. -/
theorem eq_outK_of_ix3 (a x : SX.Idx → EReal) (p : SP.Idx → EReal) (g bt : SL.Idx → EReal)
    (h : ∀ (b : Fin 64) (n : Fin 1024) (j : Fin 768), a (ix3 b n j) = normK (row x p b n) j * g (ix1 j) + bt (ix1 j)) :
    a = outK x p g bt := by
  funext i
  rw [eq_ix3 i]
  exact h _ _ _

/-- An array is `outR` of the arguments as soon as it is so at every triple of coordinates. -/
theorem eq_outR_of_ix3 (a x : SX.Idx → EReal) (p : SP.Idx → EReal) (g bt : SL.Idx → EReal)
    (h : ∀ (b : Fin 64) (n : Fin 1024) (j : Fin 768), a (ix3 b n j) = normR (row x p b n) j * g (ix1 j) + bt (ix1 j)) :
    a = outR x p g bt := by
  funext i
  rw [eq_ix3 i]
  exact h _ _ _

end Cert.LN

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.KPay.lean ====
/-
  The kernel body's arithmetic, read at one entry of its output block.

  The body loads a block of 4096 rows of activations (`x0`), the whole position table (`x1`, 1024 rows) and the
  two lane vectors (`x2`, `x3`, one row each). It regroups the 4096 rows as 4 groups of 1024 so that row `r` meets
  table row `r % 1024`, adds, and normalizes every row over its 768 lanes: at row `r` and lane `j` the stored value
  is `normK h j · x2[0, j] + x3[0, j]` for the row `h k = x0[r, k] + x1[r % 1024, k]` (Spec.lean's `normK`:
  the centred entry times the reciprocal square root of the offset variance).
-/
import proofs.«180670_g67765993996428_cont_9to1_m_62_22_alg».proof.Proof.Gen.KernelIdeal.Skeleton
import proofs.«180670_g67765993996428_cont_9to1_m_62_22_alg».proof.Proof.Spec
import proofs.«180670_g67765993996428_cont_9to1_m_62_22_alg».proof.Proof.LibLayout

noncomputable section

namespace Cert.KernelIdeal.KPay

open Idealize.ShloMosaic Idealize.ShloMosaic.ValueIdx Cert.KernelIdeal Cert.KernelIdeal.Gen Cert.LibLayout

/-- The block's rows with their position rows added (the regrouping to 4 × 1024 rows and back included). -/
def hV (x0 : Vec Ideal S4096x768 .f32) (x1 : Vec Ideal S1024x768 .bf16) : FVec Ideal S4096x768 .f32 :=
  shapeCast S4096x768
    (addf (shapeCast S4x1024x768 (shapeCast S4096x768 x0 shapeCasts_S4096x768_S4096x768) shapeCasts_S4096x768_S4x1024x768)
      (broadcastTo S4x1024x768
        (shapeCast S1x1024x768 (extf .f32 (shapeCast S1024x768 x1 shapeCasts_S1024x768_S1024x768) bitsLt_bf16_f32)
          shapeCasts_S1024x768_S1x1024x768)
        broadcasts_S1x1024x768_S4x1024x768))
    shapeCasts_S4x1024x768_S4096x768

/-- The column of row means of a block: each row's lane sum divided by the row length. -/
def meanV (h : FVec Ideal S4096x768 .f32) : FVec Ideal S4096x1 .f32 :=
  divf (shapeCast S4096x1 (multiReduction .add [1] S4096 h 0x00000000#32 reduces_S4096x768_S4096 (.inl rfl) rfl) shapeCasts_S4096_S4096x1)
    (broadcast S4096x1 (Scalar.ofBits .f32 0x44400000#32))

/-- The block with every row's mean taken off. -/
def cenV (h : FVec Ideal S4096x768 .f32) : FVec Ideal S4096x768 .f32 :=
  subf h (broadcastTo S4096x768 (meanV h) broadcasts_S4096x1_S4096x768)

/-- The column of offset variances: the mean of the squared centred entries of each row, plus the offset. -/
def offVarV (c : FVec Ideal S4096x768 .f32) : FVec Ideal S4096x1 .f32 :=
  addf (meanV (mulf c c)) (broadcast S4096x1 (Scalar.ofBits .f32 0x2B8CBCCC#32))

/-- The body's stored value is this composition of the four loads. -/
theorem pay_eq (x0 : Vec Ideal S4096x768 .f32) (x1 : Vec Ideal S1024x768 .bf16) (x2 x3 : Vec Ideal S1x768 .f32) :
    k0_pay1 x0 x1 x2 x3 =
      addf (mulf (mulf (cenV (hV x0 x1)) (broadcastTo S4096x768 (rsqrt (offVarV (cenV (hV x0 x1)))) broadcasts_S4096x1_S4096x768))
          (broadcastTo S4096x768 (shapeCast S1x768 x2 shapeCasts_S1x768_S1x768) broadcasts_S1x768_S4096x768))
        (broadcastTo S4096x768 (shapeCast S1x768 x3 shapeCasts_S1x768_S1x768) broadcasts_S1x768_S4096x768) := rfl

/-- Row `r` of the summed block, lane `k`: the activation plus the entry of table row `r % 1024`. -/
theorem hV_apply (x0 : Vec Ideal S4096x768 .f32) (x1 : Vec Ideal S1024x768 .bf16) (r : Fin 4096) (k : Fin 768) :
    hV x0 x1 (ix2 r k) = x0 (ix2 r k) + x1 (ix2 (⟨r.val % 1024, by omega⟩ : Fin 1024) k) := by
  unfold hV
  refine (shapeCast_merge_apply _ _ r k).trans ?_
  refine (addf_apply _ _ _).trans ?_
  refine congrArg₂ (· + ·) ?_ ?_
  · refine (shapeCast_split_apply _ _ _ _ _).trans ?_
    rw [shapeCast_self]
    refine congrArg x0 (congrArg (fun q : Fin 4096 => ix2 q k) (Fin.ext ?_))
    show r.val / 1024 * 1024 + r.val % 1024 = r.val
    omega
  · refine (broadcastTo_1bc_abc_apply _ _ _ _ _).trans ?_
    refine (shapeCast_ab_1ab_apply _ _ _ _ _).trans ?_
    rw [shapeCast_self]
    rfl

/-- A row's mean, read at the column's entry of row `r`: the row's lane sum divided by the row length. -/
theorem meanV_apply (h : FVec Ideal S4096x768 .f32) (r : Fin 4096) (u : Fin 1) :
    meanV h (ix2 r u) = Ideal.div (∑ k : Fin 768, h (ix2 r k)) LN.n768 := by
  unfold meanV
  refine (divf_apply _ _ _).trans ?_
  refine congrArg₂ Ideal.div ?_ rfl
  refine (shapeCast_a_a1_apply _ _ r u).trans ?_
  exact laneSum_apply h _ _ _ r

/-- The centred block at `(r, k)` is Spec.lean's centred entry of the row's function. -/
theorem cenV_apply (h : FVec Ideal S4096x768 .f32) (r : Fin 4096) (k : Fin 768) :
    cenV h (ix2 r k) = LN.cen (fun k' => h (ix2 r k')) k := by
  unfold cenV
  refine (subf_apply _ _ _).trans ?_
  refine congrArg (fun s => h (ix2 r k) - s) ?_
  refine (broadcastTo_a1_ab_apply _ _ r k).trans ?_
  exact meanV_apply h r 0

/-- The offset variance of row `r` in terms of the row's function. -/
theorem offVarV_cenV_apply (h : FVec Ideal S4096x768 .f32) (r : Fin 4096) (u : Fin 1) :
    offVarV (cenV h) (ix2 r u) = LN.var (fun k' => h (ix2 r k')) + LN.eps := by
  unfold offVarV
  refine (addf_apply _ _ _).trans ?_
  refine congrArg₂ (· + ·) ?_ rfl
  refine (meanV_apply _ r u).trans ?_
  unfold LN.var
  refine congrArg (fun s => Ideal.div s LN.n768) (Finset.sum_congr rfl fun k _ => ?_)
  refine (mulf_apply _ _ _).trans ?_
  rw [cenV_apply]

/-- THE PAYLOAD AT AN ENTRY: row `r`, lane `j` of what the body stores. -/
theorem pay_apply (x0 : Vec Ideal S4096x768 .f32) (x1 : Vec Ideal S1024x768 .bf16) (x2 x3 : Vec Ideal S1x768 .f32)
    (r : Fin 4096) (j : Fin 768) :
    k0_pay1 x0 x1 x2 x3 (ix2 r j)
      = LN.normK (fun k => x0 (ix2 r k) + x1 (ix2 (⟨r.val % 1024, by omega⟩ : Fin 1024) k)) j * x2 (ix2 (0 : Fin 1) j)
        + x3 (ix2 (0 : Fin 1) j) := by
  have hrow : (fun k' => hV x0 x1 (ix2 r k')) = fun k => x0 (ix2 r k) + x1 (ix2 (⟨r.val % 1024, by omega⟩ : Fin 1024) k) :=
    funext fun k => hV_apply x0 x1 r k
  rw [pay_eq]
  refine (addf_apply _ _ _).trans ?_
  refine congrArg₂ (· + ·) ?_ ?_
  · refine (mulf_apply _ _ _).trans ?_
    refine congrArg₂ (· * ·) ?_ ?_
    · refine (mulf_apply _ _ _).trans ?_
      rw [← hrow]
      unfold LN.normK
      refine congrArg₂ (· * ·) (cenV_apply _ r j) ?_
      refine (broadcastTo_a1_ab_apply _ _ r j).trans ?_
      exact congrArg Ideal.rsqrt (offVarV_cenV_apply _ r 0)
    · refine (broadcastTo_1b_ab_apply _ _ r j).trans ?_
      rw [shapeCast_self]
  · refine (broadcastTo_1b_ab_apply _ _ r j).trans ?_
    rw [shapeCast_self]

end Cert.KernelIdeal.KPay

end
-- ==== Proof.KBlocks.lean ====
/-
  From the kernel's blocks to the region's whole output array.

  The grid has 16 points. Point `t` takes rows `4096 t … 4096 t + 4095` of the 65536 activation rows, the WHOLE
  position table and the two lane rows, and writes rows `4096 t … 4096 t + 4095` of the output. Since 4096 is a
  multiple of 1024, row `R = 4096 t + r` of the array meets table row `r % 1024 = R % 1024`: every block is the
  restriction of ONE function of the array index (`regionOut`), the sixteen blocks tile the array (row `R` is in
  the block of point `R / 4096`), so the array after the run is that function.
-/
import proofs.«180670_g67765993996428_cont_9to1_m_62_22_alg».proof.Proof.Gen.KernelIdeal.Frame
import proofs.«180670_g67765993996428_cont_9to1_m_62_22_alg».proof.Proof.KPay
import Idealize.ShloMosaic.Lib.Pipeline.Value

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- Row `R`, lane `j` of the region's output, from the four arrays the region finds: the normalized row
    `a0[R, ·] + a1[R % 1024, ·]` at `j`, times the scale's lane, plus the shift's. -/
def regionOutAt (a0 : S65536x768.Idx → EReal) (a1 : S1024x768.Idx → EReal) (a2 a3 : S1x768.Idx → EReal)
    (R : Fin 65536) (j : Fin 768) : EReal :=
  LN.normK (fun k => a0 (ix2 R k) + a1 (ix2 (⟨R.val % 1024, by omega⟩ : Fin 1024) k)) j * a2 (ix2 (0 : Fin 1) j)
    + a3 (ix2 (0 : Fin 1) j)

/-- The region's output array as one function of the array index. -/
def regionOut (a0 : S65536x768.Idx → EReal) (a1 : S1024x768.Idx → EReal) (a2 a3 : S1x768.Idx → EReal) :
    S65536x768.Idx → EReal :=
  fun i => regionOutAt a0 a1 a2 a3 (i 0) (i 1)

/-- The printed index maps over the grid: the activation and output blocks move one block of rows per point, the
    table and the lane rows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 := by
  have hN : cfg0.N = 16 := N_0
  have := t.isLt
  omega

/-- The activation block at point `t`: its row `r` is row `4096 t + r` of the array. -/
theorem iblk0_apply (c : Dev nD) (t : Fin cfg0.N) (r : Fin 4096) (k : Fin 768) :
    (iblk m c 0 t : Vec Ideal S4096x768 .f32) (ix2 r k)
      = (V m c main_v0 : S65536x768.Idx → EReal) (ix2 (⟨t.val * 4096 + r.val, by have := point_lt t; omega⟩ : Fin 65536) k) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 768 + 1 * k.val = k.val; rw [e1]; omega

/-- The table block is the whole table at every point. -/
theorem iblk1_apply (c : Dev nD) (t : Fin cfg0.N) (n : Fin 1024) (k : Fin 768) :
    (iblk m c 1 t : Vec Ideal S1024x768 .bf16) (ix2 n k) = (V m c main_v1 : S1024x768.Idx → EReal) (ix2 n k) := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 1024 + 1 * n.val = n.val; rw [e0]; omega
  | ⟨1, _⟩ => show win0_1.index t (1 : Fin 2) * 768 + 1 * k.val = k.val; rw [e1]; omega

/-- The scale's block is its one row at every point. -/
theorem iblk2_apply (c : Dev nD) (t : Fin cfg0.N) (u : Fin 1) (k : Fin 768) :
    (iblk m c 2 t : Vec Ideal S1x768 .f32) (ix2 u k) = (V m c main_v2 : S1x768.Idx → EReal) (ix2 u k) := by
  obtain ⟨-, -, -, -, e0, e1, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 2) * 1 + 1 * u.val = u.val; rw [e0]; omega
  | ⟨1, _⟩ => show win0_2.index t (1 : Fin 2) * 768 + 1 * k.val = k.val; rw [e1]; omega

/-- The shift's block is its one row at every point. -/
theorem iblk3_apply (c : Dev nD) (t : Fin cfg0.N) (u : Fin 1) (k : Fin 768) :
    (iblk m c 3 t : Vec Ideal S1x768 .f32) (ix2 u k) = (V m c main_v3 : S1x768.Idx → EReal) (ix2 u k) := by
  obtain ⟨-, -, -, -, -, -, e0, e1, -⟩ := idx_facts t
  unfold iblk
  rw [View.read_apply]
  show V m c main_v3 _ = V m c main_v3 _
  refine congrArg (V m c main_v3) (funext fun a => Fin.ext ?_)
  match a with
  | ⟨0, _⟩ => show win0_3.index t (0 : Fin 2) * 1 + 1 * u.val = u.val; rw [e0]; omega
  | ⟨1, _⟩ => show win0_3.index t (1 : Fin 2) * 768 + 1 * k.val = k.val; rw [e1]; omega

/-- The output block at point `t`: its entry `(r, j)` sits at `(4096 t + r, j)` of the array. -/
theorem oblk_emb (t : Fin cfg0.N) (r : Fin 4096) (j : Fin 768) :
    ((cfg0.win 4).blk t).view.emb (ix2 r j) = ix2 (⟨t.val * 4096 + r.val, by have := point_lt t; omega⟩ : Fin 65536) j := by
  obtain ⟨-, -, -, -, -, -, -, -, e0, e1⟩ := idx_facts t
  refine funext fun a => Fin.ext ?_
  match a with
  | ⟨0, _⟩ => show win0_4.index t (0 : Fin 2) * 4096 + 1 * r.val = t.val * 4096 + r.val; rw [e0]; omega
  | ⟨1, _⟩ => show win0_4.index t (1 : Fin 2) * 768 + 1 * j.val = j.val; rw [e1]; omega

/-- WHAT POINT `t` WRITES BACK is block `t` of `regionOut` of the arrays as the region finds them. -/
theorem flushed_eq (c : Dev nD) (t : Fin cfg0.N) :
    (dats m 0 c).flushed 4 t
      = ((cfg0.win 4).blk t).view.read (Elt Ideal) (regionOut (V m c main_v0) (V m c main_v1) (V m c main_v2) (V m c main_v3)) := by
  show (cfg0.win 4).cut (grid0.coords t) ((dats m 0 c).after 4 t) = _
  rw [after0_4]
  unfold out0_4
  rw [View.canon_unit_zero offsets_zero]
  simp only [View.ld_unit_zero (S := S4096x768) offsets_zero, View.ld_unit_zero (S := S1024x768) offsets_zero,
    View.ld_unit_zero (S := S1x768) offsets_zero]
  funext y
  obtain ⟨r, j, rfl⟩ : ∃ (r : Fin 4096) (j : Fin 768), y = ix2 r j := ⟨y 0, y 1, eq_ix2 y⟩
  show k0_pay1 (iblk m c 0 t) (iblk m c 1 t) (iblk m c 2 t) (iblk m c 3 t) (ix2 r j)
      = regionOut (V m c main_v0) (V m c main_v1) (V m c main_v2) (V m c main_v3) (((cfg0.win 4).blk t).view.emb (ix2 r j))
  rw [oblk_emb]
  refine (KPay.pay_apply (iblk m c 0 t) (iblk m c 1 t) (iblk m c 2 t) (iblk m c 3 t) r j).trans ?_
  show _ = regionOutAt (V m c main_v0) (V m c main_v1) (V m c main_v2) (V m c main_v3)
      (⟨t.val * 4096 + r.val, by have := point_lt t; omega⟩ : Fin 65536) j
  unfold regionOutAt
  refine congrArg₂ (· + ·) (congrArg₂ (· * ·) (congrArg (fun f => LN.normK f j) (funext fun k => ?_))
    (iblk2_apply m c t 0 j)) (iblk3_apply m c t 0 j)
  refine congrArg₂ (· + ·) (iblk0_apply m c t r k) ((iblk1_apply m c t _ k).trans ?_)
  refine congrArg (fun q : Fin 1024 => (V m c main_v1 : S1024x768.Idx → EReal) (ix2 q k)) (Fin.ext ?_)
  show r.val % 1024 = (t.val * 4096 + r.val) % 1024
  omega

/-- An index of the array is in point `t`'s output block iff each coordinate is in the block's range. -/
theorem mem_blk (t : Fin cfg0.N) (i : S65536x768.Idx) :
    i ∈ ((cfg0.win 4).blk t).view.set ↔ ∀ a : Fin 2, win0_4.index t a * S4096x768.size a ≤ (i a).val
      ∧ (i a).val < win0_4.index t a * S4096x768.size a + S4096x768.size a := by
  show i ∈ ((View.whole main_v4).slice (win0_4.rect t)).set ↔ _
  rw [View.set_slice_whole, Rect.mem_set_unit]
  exact Iff.rfl

/-- The sixteen output blocks tile the array: row `R` is in the block of point `R / 4096`. -/
theorem cover (i : S65536x768.Idx) :
    ∃ t : Fin cfg0.N, (cfg0.win 4).flush t = true ∧ i ∈ ((cfg0.win 4).blk t).view.set := by
  have hi0 : (i 0).val < 65536 := (i 0).isLt
  have hi1 : (i 1).val < 768 := (i 1).isLt
  have hN : cfg0.N = 16 := N_0
  obtain ⟨t, ht⟩ : ∃ t : Fin cfg0.N, t.val = (i 0).val / 4096 := ⟨⟨(i 0).val / 4096, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    rw [e0, ht]; omega
  | ⟨1, _⟩ =>
    show win0_4.index t (1 : Fin 2) * 768 ≤ (i 1).val ∧ (i 1).val < win0_4.index t (1 : Fin 2) * 768 + 768
    rw [e1]; omega

/-- THE ARRAY after the run: `regionOut` of the arrays as the region finds them. -/
theorem final (c : Dev nD) :
    (dats m 0 c).arrAt 4 cfg0.N = regionOut (V m c main_v0) (V m c main_v1) (V m c main_v2) (V m c main_v3) :=
  (dats m 0 c).arrAt_eq_of_cover 4 _ (fun t _ => flushed_eq m c t) cover

end Cert.KernelIdeal.KBlocks

end
-- ==== Proof.KHost.lean ====
/-
  The host side of the kernel program, read at an index.

  Before its one region the program regroups the activations `[64, 1024, 768]` as 65536 rows of 768 lanes, changes the
  position table's float format (the identity on extended reals), and gives the scale and the shift a leading unit
  axis, `[768] → [1, 768]`; after the region it regroups the 65536 result rows as `[64, 1024, 768]` again.

  A regrouping keeps the row-major order of the entries, so row `R` of the 65536 is batch entry `R / 1024`,
  position `R % 1024`, and entry `(b, n, j)` of the regrouped result is row `b · 1024 + n`, lane `j`; a leading
  unit axis changes no entry. Each buffer is first stated as ONE equation between whole arrays (what the region finds,
  what the program ends with) and then read at coordinates.
-/
import proofs.«180670_g67765993996428_cont_9to1_m_62_22_alg».proof.Proof.Gen.KernelIdeal.Frame
import proofs.«180670_g67765993996428_cont_9to1_m_62_22_alg».proof.Proof.LibLayout
import Idealize.ShloMosaic.Lib.ValueLayout
import Idealize.ShloMosaic.Lib.StableHlo.Run

noncomputable section

namespace Cert.KernelIdeal.KHost

open Idealize.ShloMosaic Idealize.ShloMosaic.TcCoe Idealize.ShloMosaic.ValueIdx Idealize.SL.Sem Cert.KernelIdeal Cert.KernelIdeal.Gen
open Idealize.ShloMosaic.StableHlo

section Layout
variable {α : Type}

/-- The 64 groups of 1024 rows listed as 65536 rows: row `R` is member `R % 1024` of group `R / 1024`, because both
    arrays list their entries in the same row-major order: `((R / 1024) · 1024 + R % 1024) · 768 + k = R · 768 + k`. -/
theorem shapeCast_merge64_apply (y : (⟨3, ![64, 1024, 768]⟩ : Shape).Idx → α)
    (h : (⟨3, ![64, 1024, 768]⟩ : Shape).ShapeCasts ⟨2, ![65536, 768]⟩) (R : Fin 65536) (k : Fin 768) :
    shapeCast ⟨2, ![65536, 768]⟩ y h (ix2 R k)
      = y (ix3 (⟨R.val / 1024, by omega⟩ : Fin 64) (⟨R.val % 1024, by omega⟩ : Fin 1024) k) :=
  shapeCast_apply y h _ _ (by
    rw [Shape.rowMajor_val_two, Shape.rowMajor_val_three]
    show (R.val / 1024 * 1024 + R.val % 1024) * 768 + k.val = R.val * 768 + k.val
    omega)

/-- The 65536 rows regrouped as 64 groups of 1024: entry `(b, n, j)` of the regrouped array is row `b · 1024 + n`. -/
theorem shapeCast_split64_apply (x : (⟨2, ![65536, 768]⟩ : Shape).Idx → α)
    (h : (⟨2, ![65536, 768]⟩ : Shape).ShapeCasts ⟨3, ![64, 1024, 768]⟩) (b : Fin 64) (n : Fin 1024) (j : Fin 768) :
    shapeCast ⟨3, ![64, 1024, 768]⟩ x h (ix3 b n j) = x (ix2 (⟨b.val * 1024 + n.val, by omega⟩ : Fin 65536) j) :=
  shapeCast_apply x h _ _ (by
    rw [Shape.rowMajor_val_two, Shape.rowMajor_val_three]
    rfl)

end Layout

variable (m : (ℓ : Loc nD τ sig) → Buf (Elt Ideal) ℓ)

/-! ## What the region finds, as whole arrays -/

/-- The rows the region reads are the activations regrouped. -/
theorem V_v0_eq (c : Dev nD) :
    (V m c main_v0 : S65536x768.Idx → EReal)
      = shapeCast S65536x768 (m ((c : Thread nD τ).loc main_arg0) : S64x1024x768.Idx → EReal) shapeCasts_S64x1024x768_S65536x768 := by
  show StableHlo.after hostOps0 (fun b => m (c, b)) (Proc.devRef .tc main_v0) = _
  after_results
  rfl

/-- The position table the region reads is the table as launched: a change of float format is the identity on
    extended reals. -/
theorem V_v1_eq (c : Dev nD) :
    (V m c main_v1 : S1024x768.Idx → EReal) = (m ((c : Thread nD τ).loc main_arg1) : S1024x768.Idx → EReal) := by
  show StableHlo.after hostOps0 (fun b => m (c, b)) (Proc.devRef .tc main_v1) = _
  after_results
  rfl

/-- The scale the region reads is the scale with a leading unit axis. -/
theorem V_v2_eq (c : Dev nD) :
    (V m c main_v2 : S1x768.Idx → EReal)
      = shapeCast S1x768 (m ((c : Thread nD τ).loc main_arg2) : S768.Idx → EReal) shapeCasts_S768_S1x768 := by
  show StableHlo.after hostOps0 (fun b => m (c, b)) (Proc.devRef .tc main_v2) = _
  after_results
  rfl

/-- The shift the region reads is the shift with a leading unit axis. -/
theorem V_v3_eq (c : Dev nD) :
    (V m c main_v3 : S1x768.Idx → EReal)
      = shapeCast S1x768 (m ((c : Thread nD τ).loc main_arg3) : S768.Idx → EReal) shapeCasts_S768_S1x768 := by
  show StableHlo.after hostOps0 (fun b => m (c, b)) (Proc.devRef .tc main_v3) = _
  after_results
  rfl

/-! ## The same, at coordinates -/

/-- Row `R`, lane `k` of what the region reads is the activation at batch entry `R / 1024`, position `R % 1024`, lane `k`. -/
theorem V_v0_apply (c : Dev nD) (R : Fin 65536) (k : Fin 768) :
    (V m c main_v0 : S65536x768.Idx → EReal) (ix2 R k)
      = (m ((c : Thread nD τ).loc main_arg0) : S64x1024x768.Idx → EReal) (ix3 (⟨R.val / 1024, by omega⟩ : Fin 64) (⟨R.val % 1024, by omega⟩ : Fin 1024) k) :=
  (congrFun (V_v0_eq m c) (ix2 R k)).trans (shapeCast_merge64_apply _ _ R k)

/-- The position table's entry `(n, k)` as the region reads it is the launched entry `(n, k)`. -/
theorem V_v1_apply (c : Dev nD) (n : Fin 1024) (k : Fin 768) :
    (V m c main_v1 : S1024x768.Idx → EReal) (ix2 n k) = (m ((c : Thread nD τ).loc main_arg1) : S1024x768.Idx → EReal) (ix2 n k) :=
  congrFun (V_v1_eq m c) (ix2 n k)

/-- The scale's lane `j` as the region reads it, whatever the unit coordinate. -/
theorem V_v2_apply (c : Dev nD) (u : Fin 1) (j : Fin 768) :
    (V m c main_v2 : S1x768.Idx → EReal) (ix2 u j) = (m ((c : Thread nD τ).loc main_arg2) : S768.Idx → EReal) (ix1 j) :=
  (congrFun (V_v2_eq m c) (ix2 u j)).trans (shapeCast_a_1a_apply _ _ u j)

/-- The shift's lane `j` as the region reads it, whatever the unit coordinate. -/
theorem V_v3_apply (c : Dev nD) (u : Fin 1) (j : Fin 768) :
    (V m c main_v3 : S1x768.Idx → EReal) (ix2 u j) = (m ((c : Thread nD τ).loc main_arg3) : S768.Idx → EReal) (ix1 j) :=
  (congrFun (V_v3_eq m c) (ix2 u j)).trans (shapeCast_a_1a_apply _ _ u j)

/-! ## What the program ends with -/

/-- The result buffer at the end is the region's output array (the array of its fifth window, after the last grid
    point) regrouped: the one operation after the region reads that array and nothing else. -/
theorem tail_eq (c : Dev nD) :
    (Pipeline.afterTail₀ cfgs (dats m) 0 (V0 m) [hostOps1] c main_v5 : S64x1024x768.Idx → EReal)
      = shapeCast S64x1024x768 ((dats m 0 c).arrAt 4 cfg0.N : S65536x768.Idx → EReal) shapeCasts_S65536x768_S64x1024x768 := by
  unfold Pipeline.afterTail₀
  show StableHlo.after hostOps1 _ (Proc.devRef .tc main_v5) = _
  after_results
  exact congrArg (fun a : S65536x768.Idx → EReal => shapeCast S64x1024x768 a shapeCasts_S65536x768_S64x1024x768)
    (Pipeline.withArrays_arr spec0 launch0.win.arr_inj c (V0 m c) (fun w => (dats m 0 c).arrAt w cfg0.N) 4)

/-- Entry `(b, n, j)` of the result is row `b · 1024 + n`, lane `j` of the region's output array. -/
theorem tail_apply (c : Dev nD) (b : Fin 64) (n : Fin 1024) (j : Fin 768) :
    (Pipeline.afterTail₀ cfgs (dats m) 0 (V0 m) [hostOps1] c main_v5 : S64x1024x768.Idx → EReal) (ix3 b n j)
      = ((dats m 0 c).arrAt 4 cfg0.N : S65536x768.Idx → EReal) (ix2 (⟨b.val * 1024 + n.val, by omega⟩ : Fin 65536) j) :=
  (congrFun (tail_eq m c) (ix3 b n j)).trans (shapeCast_split64_apply _ _ b n j)

end Cert.KernelIdeal.KHost

end
-- ==== Proof.KValue.lean ====
/-
  The kernel program's result as one function of its four arguments.

  Around the region the program only re-lists entries: before it, the activations `[64, 1024, 768]` become 65536
  rows (batch `b`, position `n` ↦ row `1024 b + n`), the table changes float format (the identity on exact values)
  and the two lane vectors become one-row matrices; after it the 65536 output rows are listed again as
  `[64, 1024, 768]`. Row `R = 1024 b + n` meets table row `R % 1024 = n`, so entry `(b, n, j)` of the result is
  the normalized row `x[b, n, ·] + pos[n, ·]` at `j`, scaled and shifted: Spec.lean's `outK`.
-/
import proofs.«180670_g67765993996428_cont_9to1_m_62_22_alg».proof.Proof.KBlocks
import proofs.«180670_g67765993996428_cont_9to1_m_62_22_alg».proof.Proof.KHost

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result buffer at batch `b`, position `n`, lane `j`. -/
theorem result_apply (c : Dev nD) (b : Fin 64) (n : Fin 1024) (j : Fin 768) :
    (Pipeline.afterTail₀ cfgs (dats m) 0 (V0 m) [hostOps1] c main_v5 : S64x1024x768.Idx → EReal) (ix3 b n j)
      = LN.normK (LN.row (m ((c : Thread nD τ).loc main_arg0)) (m ((c : Thread nD τ).loc main_arg1)) b n) j
          * (m ((c : Thread nD τ).loc main_arg2) : S768.Idx → EReal) (ix1 j)
        + (m ((c : Thread nD τ).loc main_arg3) : S768.Idx → EReal) (ix1 j) := by
  rw [KHost.tail_apply, KBlocks.final]
  show KBlocks.regionOutAt (V m c main_v0) (V m c main_v1) (V m c main_v2) (V m c main_v3)
      (⟨b.val * 1024 + n.val, by omega⟩ : Fin 65536) j = _
  unfold KBlocks.regionOutAt
  refine congrArg₂ (· + ·) (congrArg₂ (· * ·) (congrArg (fun f => LN.normK f j) (funext fun k => ?_))
    (KHost.V_v2_apply m c 0 j)) (KHost.V_v3_apply m c 0 j)
  unfold LN.row
  refine congrArg₂ (· + ·) ((KHost.V_v0_apply m c _ k).trans ?_) ((KHost.V_v1_apply m c _ k).trans ?_)
  · refine congrArg₂ (fun (q : Fin 64) (q' : Fin 1024) =>
      (m ((c : Thread nD τ).loc main_arg0) : S64x1024x768.Idx → EReal) (ix3 q q' k)) (Fin.ext ?_) (Fin.ext ?_)
    · show (b.val * 1024 + n.val) / 1024 = b.val
      omega
    · show (b.val * 1024 + n.val) % 1024 = n.val
      omega
  · refine congrArg (fun q : Fin 1024 => (m ((c : Thread nD τ).loc main_arg1) : S1024x768.Idx → EReal) (ix2 q k)) (Fin.ext ?_)
    show (b.val * 1024 + n.val) % 1024 = n.val
    omega

/-- The result buffer is `outK` of the four arguments. -/
theorem result_eq (c : Dev nD) :
    Pipeline.afterTail₀ cfgs (dats m) 0 (V0 m) [hostOps1] c main_v5
      = LN.outK (m ((c : Thread nD τ).loc main_arg0)) (m ((c : Thread nD τ).loc main_arg1))
          (m ((c : Thread nD τ).loc main_arg2)) (m ((c : Thread nD τ).loc main_arg3)) :=
  LN.eq_outK_of_ix3 _ _ _ _ _ (result_apply m c)

/-- The program's run, read: it terminates without a fault with the result at `outK` of the arguments, which end
    unchanged. -/
theorem run : θ_run defs (onTc (τ := τ) (main (F := Ideal))) ⟨m, fun _ => 0, ρ⟩ fun r => ∀ c : Dev nD,
      r.2.mem ((c.tc : Thread nD τ).loc main_v5)
          = LN.outK (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefRun.lean ====
/-
  The reference program's run. Its `@main` calls `@_take`, which calls `@_where`: with both bodies unfolded at their
  calls the program is one straight line of 56 host operations (three that build the position indices, the 23 of the
  take — the select of `@_where` among them —, then the 30 of the layer normalization), and every weakly fair execution
  of it terminates with the result buffer at the operations' composed term `refTerm` of the four argument arrays and
  the arguments unchanged.

  The composed term is stated in named pieces, in the program's order: the position indices (`posIdx`), the take
  (`wrapIdx`, `startIdx`, `inTable`, `takeTerm`), then the row statistics (`meanTerm`, `cenTerm`, `varTerm`), the
  normalization (`normTerm`), and the scale and shift along the lane axis (`laneBcast`, `refTerm`).
-/
import proofs.«180670_g67765993996428_cont_9to1_m_62_22_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The position of every entry: `posIdx[b, n] = n`. -/
def posIdx : IVec S64x1024 32 :=
  broadcastInDim S64x1024 ![0, 1] bcast_S1x1024_S64x1024_0_1
    (broadcastInDim S1x1024 ![1] bcast_S1024_S1x1024_1 (iotaInDim S1024 32 0))

/-- A negative index counted from the table's end: `i < 0 ? i + 1024 : i`. -/
def wrapIdx (i : IVec S64x1024 32) : IVec S64x1024 32 :=
  select (cmpi .slt i (broadcastInDim S64x1024 ![] bcast_S_S64x1024 (constantI S_ 32 0#32)))
    (addi i (broadcastInDim S64x1024 ![] bcast_S_S64x1024 (constantI S_ 32 1024#32))) i

/-- The gather's start indices: the wrapped index under a unit index-vector axis. -/
def startIdx (i : IVec S64x1024 32) : IVec S64x1024x1 32 :=
  broadcastInDim S64x1024x1 ![0, 1] bcast_S64x1024_S64x1024x1_0_1 (wrapIdx i)

/-- Whether a start index names a row of the table: `0 ≤ s ≤ 1023`, and-reduced over the unit axis. -/
def inTable (s : IVec S64x1024x1 32) : IVec S64x1024 1 :=
  Host.reduce IntOp.andi
    (andi (cmpi .sge s (broadcastInDim S64x1024x1 ![] bcast_S_S64x1024x1 (constantI S_ 32 0#32)))
      (cmpi .sle s (broadcastInDim S64x1024x1 ![0, 1, 2] bcast_S1x1x1_S64x1024x1_0_1_2
        (broadcastInDim S1x1x1 ![2] bcast_S1_S1x1x1_2 (constantI S1 32 1023#32)))))
    (constantI S_ 1 1#1) reducesTo_S64x1024x1_S64x1024_d2 h_S_

/-- The table's rows taken at the indices `i`; the NaN word where an index names no row. -/
def takeTerm (p : FVec F S1024x768 .f32) (i : IVec S64x1024 32) : FVec F S64x1024x768 .f32 :=
  select (broadcastInDim S64x1024x768 ![0, 1] bcast_S64x1024_S64x1024x768_0_1 (inTable (startIdx i)))
    (Host.gather gather_S1024x768_S64x1024x1_S64x1024x768_2_0_n_n_0_2_1768 p (startIdx i))
    (broadcastInDim S64x1024x768 ![] bcast_S_S64x1024x768 (constant S_ .f32 0x7FC00000#32))

/-- Every row's mean, under a unit lane axis: the row's sum from zero, divided by the word of `768.0`. -/
def meanTerm (h : FVec F S64x1024x768 .f32) : FVec F S64x1024x1 .f32 :=
  Host.divf
    (broadcastInDim S64x1024x1 ![0, 1] bcast_S64x1024_S64x1024x1_0_1
      (Host.reduceAdd h (constant S_ .f32 0x00000000#32) reducesTo_S64x1024x768_S64x1024_d2 h_S_))
    (broadcastInDim S64x1024x1 ![] bcast_S_S64x1024x1 (constant S_ .f32 0x44400000#32))

/-- Every entry with its row's mean taken off. -/
def cenTerm (h : FVec F S64x1024x768 .f32) : FVec F S64x1024x768 .f32 :=
  subf h (broadcastInDim S64x1024x768 ![0, 1, 2] bcast_S64x1024x1_S64x1024x768_0_1_2 (meanTerm h))

/-- Every row's variance, under a unit lane axis: the mean of the squared centred entries. -/
def varTerm (h : FVec F S64x1024x768 .f32) : FVec F S64x1024x1 .f32 :=
  Host.divf
    (broadcastInDim S64x1024x1 ![0, 1] bcast_S64x1024_S64x1024x1_0_1
      (Host.reduceAdd (mulf (cenTerm h) (cenTerm h)) (constant S_ .f32 0x00000000#32) reducesTo_S64x1024x768_S64x1024_d2 h_S_))
    (broadcastInDim S64x1024x1 ![] bcast_S_S64x1024x1 (constant S_ .f32 0x44400000#32))

/-- Every centred entry divided by the square root of its row's offset variance. -/
def normTerm (h : FVec F S64x1024x768 .f32) : FVec F S64x1024x768 .f32 :=
  Host.divf (cenTerm h)
    (broadcastInDim S64x1024x768 ![0, 1, 2] bcast_S64x1024x1_S64x1024x768_0_1_2
      (Host.sqrt (addf (varTerm h) (broadcastInDim S64x1024x1 ![] bcast_S_S64x1024x1 (constant S_ .f32 0x2B8CBCCC#32)))))

/-- A lane vector repeated over every batch entry and position. -/
def laneBcast (g : FVec F S768 .f32) : FVec F S64x1024x768 .f32 :=
  broadcastInDim S64x1024x768 ![0, 1, 2] bcast_S1x1x768_S64x1024x768_0_1_2
    (broadcastInDim S1x1x768 ![2] bcast_S768_S1x1x768_2 g)

/-- What the program computes from the four argument arrays. -/
def refTerm (x : FVec F S64x1024x768 .f32) (p : FVec F S1024x768 .f32) (g bt : FVec F S768 .f32) :
    FVec F S64x1024x768 .f32 :=
  addf (mulf (normTerm (addf x (takeTerm p posIdx))) (laneBcast g)) (laneBcast bt)

/-! ## The program as a straight line -/

/-- The 56 operations in order, the two calls unfolded over their buffer records. -/
abbrev ops : List (HloOp τ sig (Elt F)) :=
  [ nullary main_v0 (iotaInDim S1024 32 0),
    unary main_v0 main_v1 (broadcastInDim S1x1024 ![1] bcast_S1024_S1x1024_1 : (⟨S1024, .i32⟩ : BufTy).Contents (Elt F) → (⟨S1x1024, .i32⟩ : BufTy).Contents (Elt F)),
    unary main_v1 main_v2 (broadcastInDim S64x1024 ![0, 1] bcast_S1x1024_S64x1024_0_1 : (⟨S1x1024, .i32⟩ : BufTy).Contents (Elt F) → (⟨S64x1024, .i32⟩ : BufTy).Contents (Elt F)),
    TRef.nullary main_call0.c (constantI S_ 32 0#32),
    TRef.unary main_call0.c main_call0.v0 (broadcastInDim S64x1024 ![] bcast_S_S64x1024),
    TRef.binary (.of main_v2 : TRef sig ⟨S64x1024, .i32⟩) main_call0.v0 main_call0.v1 (cmpi .slt),
    TRef.nullary main_call0.c_0 (constantI S_ 32 1024#32),
    TRef.unary main_call0.c_0 main_call0.v2 (broadcastInDim S64x1024 ![] bcast_S_S64x1024),
    TRef.binary (.of main_v2 : TRef sig ⟨S64x1024, .i32⟩) main_call0.v2 main_call0.v3 addi,
    TRef.ternary main_call0.v1 main_call0.v3 (.of main_v2 : TRef sig ⟨S64x1024, .i32⟩) main_call0.call0.v0 select,
    TRef.unary main_call0.call0.v0 main_call0.v5 (broadcastInDim S64x1024x1 ![0, 1] bcast_S64x1024_S64x1024x1_0_1),
    TRef.nullary main_call0.c_1 (constantI S1 32 1023#32),
    TRef.nullary main_call0.c_2 (constantI S_ 32 0#32),
    TRef.unary main_call0.c_2 main_call0.v6 (broadcastInDim S64x1024x1 ![] bcast_S_S64x1024x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S64x1024x1 ![0, 1, 2] bcast_S1x1x1_S64x1024x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1024x1_S64x1024_d2 h_S_),
    TRef.binary (.of main_arg1 : TRef sig ⟨S1024x768, .f32⟩) main_call0.v5 main_call0.v13 (fun x i => Host.gather gather_S1024x768_S64x1024x1_S64x1024x768_2_0_n_n_0_2_1768 x i),
    TRef.unary main_call0.v12 main_call0.v14 (broadcastInDim S64x1024x768 ![0, 1] bcast_S64x1024_S64x1024x768_0_1),
    TRef.nullary main_call0.cst (constant S_ .f32 0x7FC00000#32),
    TRef.unary main_call0.cst main_call0.v15 (broadcastInDim S64x1024x768 ![] bcast_S_S64x1024x768),
    TRef.ternary main_call0.v14 main_call0.v13 main_call0.v15 main_call0.v16 select,
    binary main_arg0 main_v3 main_v4 (addf : (⟨S64x1024x768, .f32⟩ : BufTy).Contents (Elt F) → (⟨S64x1024x768, .f32⟩ : BufTy).Contents (Elt F) → (⟨S64x1024x768, .f32⟩ : BufTy).Contents (Elt F)),
    nullary main_cst (constant S_ .f32 0x00000000#32),
    binary main_v4 main_cst main_v5 ((fun x v => Host.reduceAdd x v reducesTo_S64x1024x768_S64x1024_d2 h_S_) : (⟨S64x1024x768, .f32⟩ : BufTy).Contents (Elt F) → (⟨S_, .f32⟩ : BufTy).Contents (Elt F) → (⟨S64x1024, .f32⟩ : BufTy).Contents (Elt F)),
    unary main_v5 main_v6 (broadcastInDim S64x1024x1 ![0, 1] bcast_S64x1024_S64x1024x1_0_1 : (⟨S64x1024, .f32⟩ : BufTy).Contents (Elt F) → (⟨S64x1024x1, .f32⟩ : BufTy).Contents (Elt F)),
    nullary main_cst_0 (constant S_ .f32 0x44400000#32),
    unary main_cst_0 main_v7 (broadcastInDim S64x1024x1 ![] bcast_S_S64x1024x1 : (⟨S_, .f32⟩ : BufTy).Contents (Elt F) → (⟨S64x1024x1, .f32⟩ : BufTy).Contents (Elt F)),
    binary main_v6 main_v7 main_v8 (Host.divf : (⟨S64x1024x1, .f32⟩ : BufTy).Contents (Elt F) → (⟨S64x1024x1, .f32⟩ : BufTy).Contents (Elt F) → (⟨S64x1024x1, .f32⟩ : BufTy).Contents (Elt F)),
    unary main_v8 main_v9 (broadcastInDim S64x1024x768 ![0, 1, 2] bcast_S64x1024x1_S64x1024x768_0_1_2 : (⟨S64x1024x1, .f32⟩ : BufTy).Contents (Elt F) → (⟨S64x1024x768, .f32⟩ : BufTy).Contents (Elt F)),
    binary main_v4 main_v9 main_v10 (subf : (⟨S64x1024x768, .f32⟩ : BufTy).Contents (Elt F) → (⟨S64x1024x768, .f32⟩ : BufTy).Contents (Elt F) → (⟨S64x1024x768, .f32⟩ : BufTy).Contents (Elt F)),
    binary main_v10 main_v10 main_v11 (mulf : (⟨S64x1024x768, .f32⟩ : BufTy).Contents (Elt F) → (⟨S64x1024x768, .f32⟩ : BufTy).Contents (Elt F) → (⟨S64x1024x768, .f32⟩ : BufTy).Contents (Elt F)),
    nullary main_cst_1 (constant S_ .f32 0x00000000#32),
    binary main_v11 main_cst_1 main_v12 ((fun x v => Host.reduceAdd x v reducesTo_S64x1024x768_S64x1024_d2 h_S_) : (⟨S64x1024x768, .f32⟩ : BufTy).Contents (Elt F) → (⟨S_, .f32⟩ : BufTy).Contents (Elt F) → (⟨S64x1024, .f32⟩ : BufTy).Contents (Elt F)),
    unary main_v12 main_v13 (broadcastInDim S64x1024x1 ![0, 1] bcast_S64x1024_S64x1024x1_0_1 : (⟨S64x1024, .f32⟩ : BufTy).Contents (Elt F) → (⟨S64x1024x1, .f32⟩ : BufTy).Contents (Elt F)),
    nullary main_cst_2 (constant S_ .f32 0x44400000#32),
    unary main_cst_2 main_v14 (broadcastInDim S64x1024x1 ![] bcast_S_S64x1024x1 : (⟨S_, .f32⟩ : BufTy).Contents (Elt F) → (⟨S64x1024x1, .f32⟩ : BufTy).Contents (Elt F)),
    binary main_v13 main_v14 main_v15 (Host.divf : (⟨S64x1024x1, .f32⟩ : BufTy).Contents (Elt F) → (⟨S64x1024x1, .f32⟩ : BufTy).Contents (Elt F) → (⟨S64x1024x1, .f32⟩ : BufTy).Contents (Elt F)),
    unary main_v8 main_v16 (broadcastInDim S64x1024x768 ![0, 1, 2] bcast_S64x1024x1_S64x1024x768_0_1_2 : (⟨S64x1024x1, .f32⟩ : BufTy).Contents (Elt F) → (⟨S64x1024x768, .f32⟩ : BufTy).Contents (Elt F)),
    binary main_v4 main_v16 main_v17 (subf : (⟨S64x1024x768, .f32⟩ : BufTy).Contents (Elt F) → (⟨S64x1024x768, .f32⟩ : BufTy).Contents (Elt F) → (⟨S64x1024x768, .f32⟩ : BufTy).Contents (Elt F)),
    nullary main_cst_3 (constant S_ .f32 0x2B8CBCCC#32),
    unary main_cst_3 main_v18 (broadcastInDim S64x1024x1 ![] bcast_S_S64x1024x1 : (⟨S_, .f32⟩ : BufTy).Contents (Elt F) → (⟨S64x1024x1, .f32⟩ : BufTy).Contents (Elt F)),
    binary main_v15 main_v18 main_v19 (addf : (⟨S64x1024x1, .f32⟩ : BufTy).Contents (Elt F) → (⟨S64x1024x1, .f32⟩ : BufTy).Contents (Elt F) → (⟨S64x1024x1, .f32⟩ : BufTy).Contents (Elt F)),
    unary main_v19 main_v20 (Host.sqrt : (⟨S64x1024x1, .f32⟩ : BufTy).Contents (Elt F) → (⟨S64x1024x1, .f32⟩ : BufTy).Contents (Elt F)),
    unary main_v20 main_v21 (broadcastInDim S64x1024x768 ![0, 1, 2] bcast_S64x1024x1_S64x1024x768_0_1_2 : (⟨S64x1024x1, .f32⟩ : BufTy).Contents (Elt F) → (⟨S64x1024x768, .f32⟩ : BufTy).Contents (Elt F)),
    binary main_v17 main_v21 main_v22 (Host.divf : (⟨S64x1024x768, .f32⟩ : BufTy).Contents (Elt F) → (⟨S64x1024x768, .f32⟩ : BufTy).Contents (Elt F) → (⟨S64x1024x768, .f32⟩ : BufTy).Contents (Elt F)),
    unary main_arg2 main_v23 (broadcastInDim S1x1x768 ![2] bcast_S768_S1x1x768_2 : (⟨S768, .f32⟩ : BufTy).Contents (Elt F) → (⟨S1x1x768, .f32⟩ : BufTy).Contents (Elt F)),
    unary main_v23 main_v24 (broadcastInDim S64x1024x768 ![0, 1, 2] bcast_S1x1x768_S64x1024x768_0_1_2 : (⟨S1x1x768, .f32⟩ : BufTy).Contents (Elt F) → (⟨S64x1024x768, .f32⟩ : BufTy).Contents (Elt F)),
    binary main_v22 main_v24 main_v25 (mulf : (⟨S64x1024x768, .f32⟩ : BufTy).Contents (Elt F) → (⟨S64x1024x768, .f32⟩ : BufTy).Contents (Elt F) → (⟨S64x1024x768, .f32⟩ : BufTy).Contents (Elt F)),
    unary main_arg3 main_v26 (broadcastInDim S1x1x768 ![2] bcast_S768_S1x1x768_2 : (⟨S768, .f32⟩ : BufTy).Contents (Elt F) → (⟨S1x1x768, .f32⟩ : BufTy).Contents (Elt F)),
    unary main_v26 main_v27 (broadcastInDim S64x1024x768 ![0, 1, 2] bcast_S1x1x768_S64x1024x768_0_1_2 : (⟨S1x1x768, .f32⟩ : BufTy).Contents (Elt F) → (⟨S64x1024x768, .f32⟩ : BufTy).Contents (Elt F)),
    binary main_v25 main_v27 main_v28 (addf : (⟨S64x1024x768, .f32⟩ : BufTy).Contents (Elt F) → (⟨S64x1024x768, .f32⟩ : BufTy).Contents (Elt F) → (⟨S64x1024x768, .f32⟩ : BufTy).Contents (Elt F)) ]

/-- `@main` is that line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## What each buffer holds after the line -/

-- the pure operations stay folded while the fold over the 56 operations is computed: the equation never looks inside them
attribute [local irreducible] Host.reduce Host.gather Host.reduceAdd Host.divf Host.sqrt broadcastInDim in
/-- The result buffer holds the composed term of the four argument buffers' contents. -/
theorem out_eq (V : Valuation τ sig (Elt F)) :
    after ops V (main_v28 : DevRef τ sig)
      = refTerm (V (main_arg0 : DevRef τ sig)) (V (main_arg1 : DevRef τ sig)) (V (main_arg2 : DevRef τ sig))
          (V (main_arg3 : DevRef τ sig)) := by
  after_results_simp
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-! ## The run -/

/-- On every device, for any float values, from any memory with zero counters: every weakly fair execution of `@main`
    terminates with the result buffer at `refTerm` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v28)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefTake.lean ====
/-
  The take read at an index. The reference gathers, for every batch entry `b` and position `n`, the row of the position
  table named by the index `posIdx[b, n] = n`. That index is never negative, so the wrap `i < 0 ? i + 1024 : i` leaves
  it; it lies in `0 … 1023`, so the bounds check holds at every entry and the NaN fill is selected nowhere; and the
  gather's clamp `min n 1023` is `n`. Hence the taken array at `(b, n, j)` is the table at `(n, j)`.
-/
import proofs.«180670_g67765993996428_cont_9to1_m_62_22_alg».proof.Proof.RefRun
import Idealize.ShloMosaic.Lib.IdealHost
import Idealize.ShloMosaic.Lib.Pipeline.Value

noncomputable section

namespace Cert.ReferenceIdeal.RefTake

open Cert.ReferenceIdeal Cert.ReferenceIdeal.Gen Cert.ReferenceIdeal.RefRun Idealize.ShloMosaic Idealize.ShloMosaic.ValueIdx

variable {α : Type}

/-! ## Broadcasts read at an index -/

/-- A `[64, 1024]` array under a new unit last axis reads the array at the first two coordinates. -/
theorem bcastUnit_apply (v : S64x1024.Idx → α) (b : Fin 64) (n : Fin 1024) (u : Fin 1) :
    broadcastInDim S64x1024x1 ![0, 1] bcast_S64x1024_S64x1024x1_0_1 v (ix3 b n u) = v (ix2 b n) :=
  broadcastInDim_apply _ _ v _ (ix2 b n) (fun a => by match a with | ⟨0, _⟩ => rfl | ⟨1, _⟩ => rfl)

/-- A `[64, 1024]` array repeated along a new lane axis reads the array at the first two coordinates. -/
theorem bcastRows_apply (v : S64x1024.Idx → α) (b : Fin 64) (n : Fin 1024) (j : Fin 768) :
    broadcastInDim S64x1024x768 ![0, 1] bcast_S64x1024_S64x1024x768_0_1 v (ix3 b n j) = v (ix2 b n) :=
  broadcastInDim_apply _ _ v _ (ix2 b n) (fun a => by match a with | ⟨0, _⟩ => rfl | ⟨1, _⟩ => rfl)

/-! ## Words: a position as a signed 32-bit integer -/

/-- A position below 1024 read as a signed 32-bit word is itself. -/
theorem toInt_ofNat_small (n : Nat) (h : n < 1024) : (BitVec.ofNat 32 n).toInt = (n : Int) := by
  rw [BitVec.toInt_eq_toNat_cond, BitVec.toNat_ofNat, Nat.mod_eq_of_lt (by omega), if_pos (by omega)]

/-- It is not negative … -/
theorem slt_zero (n : Nat) (h : n < 1024) : IntOp.cmpi .slt (BitVec.ofNat 32 n) 0#32 = 0#1 := by
  have hn : ¬ ((n : Int) < 0) := by omega
  simp [IntOp.cmpi, BitVec.slt, toInt_ofNat_small n h, hn]

/-- … it is at least zero … -/
theorem sge_zero (n : Nat) (h : n < 1024) : IntOp.cmpi .sge (BitVec.ofNat 32 n) 0#32 = 1#1 := by
  simp [IntOp.cmpi, BitVec.sle, toInt_ofNat_small n h]

/-- … and at most 1023. -/
theorem sle_last (n : Nat) (h : n < 1024) : IntOp.cmpi .sle (BitVec.ofNat 32 n) 1023#32 = 1#1 := by
  have h2 : (1023#32 : BitVec 32).toInt = 1023 := toInt_ofNat_small 1023 (by omega)
  have hn : (n : Int) ≤ 1023 := by omega
  simp [IntOp.cmpi, BitVec.sle, toInt_ofNat_small n h, h2, hn]

/-! ## The indices -/

/-- The position index at `(b, n)` is the word of `n`. -/
theorem posIdx_apply (b : Fin 64) (n : Fin 1024) : posIdx (ix2 b n) = BitVec.ofNat 32 n.val := rfl

/-- The wrap leaves it: it is not negative. -/
theorem wrapIdx_apply (b : Fin 64) (n : Fin 1024) : wrapIdx posIdx (ix2 b n) = BitVec.ofNat 32 n.val := by
  show Scalar.select (IntOp.cmpi .slt (posIdx (ix2 b n)) 0#32) _ (posIdx (ix2 b n)) = _
  rw [posIdx_apply, slt_zero _ n.isLt, select_zero]

/-- The gather's start index at `(b, n)` is the word of `n`. -/
theorem startIdx_apply (b : Fin 64) (n : Fin 1024) (u : Fin 1) : startIdx posIdx (ix3 b n u) = BitVec.ofNat 32 n.val :=
  (bcastUnit_apply _ b n u).trans (wrapIdx_apply b n)

/-! ## The bounds check -/

/-- A left fold of `and` from the bit 1 over bits that are all 1 is 1. -/
theorem foldl_andi_one {ι : Type} (f : ι → BitVec 1) :
    ∀ (l : List ι) (r : BitVec 1), r = 1#1 → (∀ i ∈ l, f i = 1#1) → l.foldl (fun r i => IntOp.andi r (f i)) r = 1#1
  | [], _, hr, _ => hr
  | i :: l, r, hr, hf => by
    rw [List.foldl_cons]
    refine foldl_andi_one f l _ ?_ (fun k hk => hf k (List.mem_cons_of_mem _ hk))
    rw [hr, hf i List.mem_cons_self]; rfl

/-- An and-reduction from the bit 1 of an array whose bits are all 1 is 1 everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_one x _ _ hi (fun i _ => hx i)

/-- Every start index names a row of the table. -/
theorem inTable_apply (j : S64x1024.Idx) : inTable (startIdx posIdx) j = 1#1 := by
  unfold inTable
  refine reduce_andi_one _ _ _ _ j rfl (fun i => ?_)
  obtain ⟨b, n, u, rfl⟩ : ∃ (b : Fin 64) (n : Fin 1024) (u : Fin 1), i = ix3 b n u := ⟨i 0, i 1, i 2, eq_ix3 i⟩
  show IntOp.andi (IntOp.cmpi .sge (startIdx posIdx (ix3 b n u)) 0#32) (IntOp.cmpi .sle (startIdx posIdx (ix3 b n u)) 1023#32) = 1#1
  rw [startIdx_apply, sge_zero _ n.isLt, sle_last _ n.isLt]; rfl

/-! ## The gather -/

/-- The gather's dimension numbers: rows of a `[1024, 768]` table at `[64, 1024, 1]` start indices. -/
abbrev G : GatherDims S1024x768 S64x1024x1 S64x1024x768 := gather_S1024x768_S64x1024x1_S64x1024x768_2_0_n_n_0_2_1768

/-- The gather at `(b, n, j)`, where the start index at `(b, n)` is the word of `n`: the table at `(n, j)` (the clamp
    `min n 1023` is `n`; the lane coordinate is the offset along the table's second axis). -/
theorem gather_apply (p : S1024x768.Idx → α) (s : IVec S64x1024x1 32) (b : Fin 64) (n : Fin 1024) (j : Fin 768)
    (hs : s (ix3 b n (0 : Fin 1)) = BitVec.ofNat 32 n.val) : Host.gather G p s (ix3 b n j) = p (ix2 n j) := by
  -- whichever component of the start index is asked for (there is one), it is read at `(b, n, 0)`
  have key : ∀ c : Fin G.startIndexMap.length, G.siIdx (ix3 b n j) c = ix3 b n (0 : Fin 1) := by
    intro c; funext d; refine Fin.ext ?_
    have hc : c.val < 1 := c.isLt
    match d with
    | ⟨0, _⟩ => rfl
    | ⟨1, _⟩ => rfl
    | ⟨2, _⟩ => show c.val = 0; omega
  -- the table's row axis: the clamped start index, no batching and no offset coordinate
  have row : G.start (ix3 b n j) s (0 : Fin 2) + G.batchCoord (ix3 b n j) (0 : Fin 2) + G.offCoord (ix3 b n j) (0 : Fin 2) = n.val := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    split
    · rw [key, hs, toInt_ofNat_small _ n.isLt]
      show min (n.val : Int).toNat (1024 - 1) + 0 + 0 = n.val
      have := n.isLt
      simp only [Int.toNat_natCast]
      omega
    · next ha => exact absurd (List.mem_singleton.mpr rfl) ha
  -- the table's lane axis: no start index, no batching, the result's lane coordinate as the offset
  have lane : G.start (ix3 b n j) s (1 : Fin 2) + G.batchCoord (ix3 b n j) (1 : Fin 2) + G.offCoord (ix3 b n j) (1 : Fin 2) = j.val := by
    rw [GatherDims.batchCoord_eq_zero _ _ _ List.not_mem_nil]
    unfold GatherDims.start
    split
    · next ha => exact absurd ha (by decide)
    · show 0 + 0 + G.offCoord (ix3 b n j) (1 : Fin 2) = j.val
      simp only [Nat.zero_add]
      rfl
  unfold Host.gather
  refine congrArg p (funext fun a => Fin.ext ?_)
  match a with
  | ⟨0, _⟩ => exact row
  | ⟨1, _⟩ => exact lane

/-! ## The take -/

variable {F : FTy → Type} [FloatOps F]

/-- The taken array at `(b, n, j)` is the table at `(n, j)`. -/
theorem takeTerm_apply (p : FVec F S1024x768 .f32) (b : Fin 64) (n : Fin 1024) (j : Fin 768) :
    takeTerm p posIdx (ix3 b n j) = p (ix2 n j) := by
  unfold takeTerm
  rw [select_apply, bcastRows_apply, inTable_apply, select_one]
  exact gather_apply p _ b n j (startIdx_apply b n 0)

end Cert.ReferenceIdeal.RefTake

end
-- ==== Proof.RefValue.lean ====
/-
  The reference's result read at an index, and its run stated over the specification.

  For a batch entry `b`, a position `n` and a lane `j` the composed term of the reference's 56 operations
  (`RefRun.refTerm`) is read one operation at a time, outermost first: the final sum and product are elementwise; the
  scale and the shift are lane vectors repeated over `(b, n)`; the quotient's divisor is the square root, kept under a
  unit lane axis and repeated along the lanes; the two row sums are sums over the 768 lanes of the row
  `h k = x[b, n, k] + pos[n, k]` (the take of the position table reads the table's row `n`: `RefTake.takeTerm_apply`),
  from the zero word. What is read is the specification's `normR (row x p b n) j * g j + bt j`, so the term is
  `Cert.LN.outR` of the four arguments, and the program's run ends with the result buffer at it.
-/
import proofs.«180670_g67765993996428_cont_9to1_m_62_22_alg».proof.Proof.RefTake
import proofs.«180670_g67765993996428_cont_9to1_m_62_22_alg».proof.Proof.Spec

noncomputable section

namespace Cert.ReferenceIdeal.RefValue

open Idealize.ShloMosaic Idealize.ShloMosaic.TcCoe Idealize.SL.Sem Cert.ReferenceIdeal
open Cert.ReferenceIdeal.Gen Cert.ReferenceIdeal.RefRun Cert.ReferenceIdeal.RefTake Idealize.ShloMosaic.ValueIdx
open scoped BigOperators

variable {α : Type}

/-! ## Broadcasts read at an index -/

/-- A `[64, 1024, 1]` array repeated along the lanes reads the array at lane 0. -/
theorem bcastLanes_apply (v : S64x1024x1.Idx → α) (b : Fin 64) (n : Fin 1024) (j : Fin 768) :
    broadcastInDim S64x1024x768 ![0, 1, 2] bcast_S64x1024x1_S64x1024x768_0_1_2 v (ix3 b n j) = v (ix3 b n (0 : Fin 1)) :=
  broadcastInDim_apply _ _ v _ (ix3 b n (0 : Fin 1))
    (fun a => by match a with | ⟨0, _⟩ => rfl | ⟨1, _⟩ => rfl | ⟨2, _⟩ => rfl)

/-- A lane vector repeated over every batch entry and position reads the vector at the lane. -/
theorem laneBcast_apply {F : FTy → Type} [FloatOps F] (g : FVec F S768 .f32) (b : Fin 64) (n : Fin 1024) (j : Fin 768) :
    laneBcast g (ix3 b n j) = g (ix1 j) :=
  (broadcastInDim_apply _ _ _ (ix3 b n j) (ix3 (0 : Fin 1) (0 : Fin 1) j)
    (fun a => by match a with | ⟨0, _⟩ => rfl | ⟨1, _⟩ => rfl | ⟨2, _⟩ => rfl)).trans
  (broadcastInDim_apply _ _ g (ix3 (0 : Fin 1) (0 : Fin 1) j) (ix1 j) (fun a => by match a with | ⟨0, _⟩ => rfl))

/-! ## A row's sum -/

/-- The shape fact that names the index inserted on the lane axis. -/
theorem reduces_lanes : S64x1024x768.Reduces [2] S64x1024 := by decide

/-- The index over `(b, n)` with lane `k` inserted is `(b, n, k)`. -/
theorem lift_lanes (b : Fin 64) (n : Fin 1024) (k : Fin 768) : reduces_lanes.lift (ix2 b n) k = ix3 b n k := by
  funext c; refine Fin.ext ?_
  match c with
  | ⟨0, _⟩ => rfl
  | ⟨1, _⟩ => rfl
  | ⟨2, _⟩ => rfl

/-- The host's sum over the lanes from the zero word, at `(b, n)`: the sum of the row's 768 entries. -/
theorem rowSum_apply (v : FVec Ideal S64x1024x768 .f32) (b : Fin 64) (n : Fin 1024) :
    Host.reduceAdd (F := Ideal) v (constant (F := Ideal) S_ .f32 0x00000000#32) reducesTo_S64x1024x768_S64x1024_d2 h_S_ (ix2 b n)
      = ∑ k : Fin 768, v (ix3 b n k) := by
  refine (Ideal.hostReduceAdd_single reducesTo_S64x1024x768_S64x1024_d2 reduces_lanes v _ (ix2 b n)).trans ?_
  rw [constant_apply, Ideal.ofBits_zero_f32, zero_add]
  exact Finset.sum_congr rfl (fun k _ => congrArg v (lift_lanes b n k))

/-- The host's square root at an index is the ideal square root of the element. -/
theorem hostSqrt_apply {s : Shape} {φ : FTy} (a : FVec Ideal s φ) (i : s.Idx) : Host.sqrt a i = Ideal.sqrt (a i) := rfl

/-! ## The statistics of the row at `(b, n)`

`h` is any array whose row at `(b, n)` is `r`. -/

section Row

variable (h : FVec Ideal S64x1024x768 .f32) (b : Fin 64) (n : Fin 1024) (r : Fin 768 → EReal)
  (hr : ∀ k, h (ix3 b n k) = r k)
include hr

theorem meanTerm_apply : meanTerm h (ix3 b n (0 : Fin 1)) = Cert.LN.mean r := by
  unfold meanTerm Cert.LN.mean
  rw [hostDivf_apply, bcastUnit_apply, rowSum_apply, broadcastInDim_scalar_apply, constant_apply]
  simp only [hr]

theorem cenTerm_apply (j : Fin 768) : cenTerm h (ix3 b n j) = Cert.LN.cen r j := by
  unfold cenTerm Cert.LN.cen
  rw [subf_apply, bcastLanes_apply, meanTerm_apply h b n r hr, hr]

theorem varTerm_apply : varTerm h (ix3 b n (0 : Fin 1)) = Cert.LN.var r := by
  unfold varTerm Cert.LN.var
  rw [hostDivf_apply, bcastUnit_apply, rowSum_apply, broadcastInDim_scalar_apply, constant_apply]
  simp only [mulf_apply, cenTerm_apply h b n r hr]

theorem normTerm_apply (j : Fin 768) : normTerm h (ix3 b n j) = Cert.LN.normR r j := by
  unfold normTerm Cert.LN.normR
  rw [hostDivf_apply, bcastLanes_apply, hostSqrt_apply, addf_apply, cenTerm_apply h b n r hr, varTerm_apply h b n r hr,
    broadcastInDim_scalar_apply, constant_apply]

end Row

/-! ## The composed term is the specification's array -/

/-- The summed row at `(b, n)` is the specification's `row`. -/
theorem hrow_apply (x : FVec Ideal S64x1024x768 .f32) (p : FVec Ideal S1024x768 .f32) (b : Fin 64) (n : Fin 1024) (k : Fin 768) :
    addf x (takeTerm p posIdx) (ix3 b n k) = Cert.LN.row x p b n k := by
  rw [addf_apply, takeTerm_apply]
  rfl

theorem refTerm_eq (x : FVec Ideal S64x1024x768 .f32) (p : FVec Ideal S1024x768 .f32) (g bt : FVec Ideal S768 .f32) :
    refTerm x p g bt = Cert.LN.outR x p g bt :=
  Cert.LN.eq_outR_of_ix3 _ x p g bt (fun b n j => by
    unfold refTerm
    rw [addf_apply, mulf_apply, laneBcast_apply, laneBcast_apply,
      normTerm_apply _ b n (Cert.LN.row x p b n) (fun k => hrow_apply x p b n k) j])

/-! ## The run -/

/-- On every device, from any memory with zero counters: every weakly fair execution of the reference's `@main` at the
    ideal values terminates with the result buffer at the specification's `outR` of the arguments' launch contents and
    the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28)
          = Cert.LN.outR (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1).trans (refTerm_eq _ _ _ _), (h c).2⟩) (RefRun.run m ρ)

end Cert.ReferenceIdeal.RefValue

end
-- ==== Proof.Algebra.lean ====
/-
  The one algebraic law between the two programs: on a row of real numbers, multiplying a centred entry by the
  reciprocal square root of the offset variance is dividing it by the square root of the offset variance.

  Why the row must be real: at an infinite entry the mean, the centred entries and the variance leave the reals and
  the two normalizations are no longer the same product. On a real row every intermediate value is a real number:
  the sum of the row, the mean (the sum times the real 1/768), each centred entry, each square, their sum and the
  variance; the variance is moreover a mean of squares, so it is at least 0, and the offset is a positive real, so
  the offset variance is a real y with 0 < y. There the reciprocal square root is the real (√y)⁻¹, the square root
  is the real √y ≠ 0, and division by the nonzero real √y is multiplication by its reciprocal.
-/
import proofs.«180670_g67765993996428_cont_9to1_m_62_22_alg».proof.Proof.Spec

noncomputable section

namespace Cert.LN

open Idealize.ShloMosaic Idealize.ShloMosaic.ValueIdx

/-- The row length's word denotes the real number 768. -/
theorem n768_eq : n768 = ((768 : ℝ) : EReal) := by
  simp [Ideal.ofBits, Ideal.ieee, -EReal.coe_mul]; norm_num

/-- The variance offset's word denotes a positive real number (sign bit 0, exponent field 87: a normal value). -/
theorem eps_pos : ∃ e : ℝ, 0 < e ∧ eps = (e : EReal) := by
  simp [Ideal.ofBits, Ideal.ieee, -EReal.coe_mul]

/-- A finite sum of real numbers, taken in the extended reals, is the real sum. -/
theorem coe_sum {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The mean of a real row is the real mean. -/
theorem mean_coe (r : Fin 768 → ℝ) :
    mean (fun k => (r k : EReal)) = (((∑ k, r k) * (1 / 768) : ℝ) : EReal) := by
  rw [mean, n768_eq, Ideal.div_coe (by norm_num), coe_sum, ← EReal.coe_mul]

/-- A centred entry of a real row is the real centred entry. -/
theorem cen_coe (r : Fin 768 → ℝ) (j : Fin 768) :
    cen (fun k => (r k : EReal)) j = ((r j - (∑ k, r k) * (1 / 768) : ℝ) : EReal) := by
  rw [cen, mean_coe, ← EReal.coe_sub]

/-- The variance of a real row is the real variance. -/
theorem var_coe (r : Fin 768 → ℝ) :
    var (fun k => (r k : EReal)) =
      (((∑ j, (r j - (∑ k, r k) * (1 / 768)) * (r j - (∑ k, r k) * (1 / 768))) * (1 / 768) : ℝ) : EReal) := by
  rw [var, n768_eq, Ideal.div_coe (by norm_num)]
  simp only [cen_coe, ← EReal.coe_mul]
  rw [coe_sum, ← EReal.coe_mul]

/-- On a real row the kernel's normalization and the reference's are the same product. -/
theorem normK_eq_normR (h : Fin 768 → EReal) (hh : ∀ k, ∃ r : ℝ, h k = (r : EReal)) (j : Fin 768) :
    normK h j = normR h j := by
  choose hr hhr using hh
  obtain rfl : h = fun k => (hr k : EReal) := funext hhr
  obtain ⟨e, he, hee⟩ := eps_pos
  -- the variance is a mean of squares: at least 0
  have hv : 0 ≤ (∑ j, (hr j - (∑ k, hr k) * (1 / 768)) * (hr j - (∑ k, hr k) * (1 / 768))) * (1 / 768 : ℝ) :=
    mul_nonneg (Finset.sum_nonneg fun j _ => mul_self_nonneg _) (by norm_num)
  -- so the offset variance is a positive real, and its square root is not 0
  have hy : 0 < (∑ j, (hr j - (∑ k, hr k) * (1 / 768)) * (hr j - (∑ k, hr k) * (1 / 768))) * (1 / 768 : ℝ) + e := by
    linarith
  have hs : Real.sqrt ((∑ j, (hr j - (∑ k, hr k) * (1 / 768)) * (hr j - (∑ k, hr k) * (1 / 768))) * (1 / 768 : ℝ) + e) ≠ 0 :=
    (Real.sqrt_pos.mpr hy).ne'
  rw [normK, normR, var_coe, hee, ← EReal.coe_add, Ideal.rsqrt_coe, Ideal.sqrt_coe, if_neg (not_lt.mpr hy.le),
    if_neg (not_lt.mpr hy.le), if_neg hy.ne', Ideal.div_coe hs]
  simp only [one_div]

/-- On real activations and a real position table the two result arrays are the same array: the scale and the shift
    are applied alike on both sides, so nothing is asked of them. -/
theorem outK_eq_outR (x : SX.Idx → EReal) (p : SP.Idx → EReal) (g bt : SL.Idx → EReal)
    (hx : ∀ i, ∃ r : ℝ, x i = (r : EReal)) (hp : ∀ i, ∃ r : ℝ, p i = (r : EReal)) : outK x p g bt = outR x p g bt := by
  -- every row that is normalized is a row of real numbers: a sum of two reals, lane by lane
  have hrow : ∀ (b : Fin 64) (n : Fin 1024) (k : Fin 768), ∃ r : ℝ, row x p b n k = (r : EReal) := by
    intro b n k
    obtain ⟨a, ha⟩ := hx (ix3 b n k)
    obtain ⟨c, hc⟩ := hp (ix2 n k)
    exact ⟨a + c, by show x (ix3 b n k) + p (ix2 n k) = _; rw [ha, hc, EReal.coe_add]⟩
  exact eq_outR_of_ix3 _ x p g bt fun b n j => by rw [outK_ix3, normK_eq_normR _ (hrow b n)]

end Cert.LN

end
-- ==== Proof.Finite.lean ====
/-
  From the precondition to: every activation and every position-table entry is a real number.

  The precondition is the conjunction of four statements of one kind, one per argument array: every entry's
  absolute value is less than +∞. At the ideal instance an entry is an extended real, its absolute value is
  max v (−v), and the word 0x7F800000 denotes ⊤. For v = ⊤ and for v = ⊥ the absolute value is ⊤, which is not
  less than ⊤; so an entry that passes the test is neither, and is a real number. The scale's and the shift's
  conjuncts are not needed by the algebraic law and are dropped here.
-/
import proofs.«180670_g67765993996428_cont_9to1_m_62_22_alg».proof.Pre_finite_inputs
import proofs.«180670_g67765993996428_cont_9to1_m_62_22_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The rank-0 shape has exactly one index, so a reduction over all axes has one result. -/
instance : Subsingleton S_.Idx := ⟨fun a b => funext fun d => d.elim0⟩

/-- An extended real whose absolute value is less than +∞ is a real number: at ⊤ and at ⊥ the absolute value is ⊤. -/
theorem real_of_abs_lt_inf (v : EReal)
    (h : Ideal.cmp .olt (max v (-v)) (Ideal.ofBits .f32 0x7F800000#32) = 1#1) : ∃ r : ℝ, v = (r : EReal) := by
  -- the all-ones exponent with a zero fraction and sign bit 0 denotes ⊤
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

/-- When the precondition holds, the activations and the position table hold real numbers only. -/
theorem real_of_fn [Cert.Pre_finite_inputs.Facts]
    (x : FVec Ideal S64x1024x768 .f32) (p : FVec Ideal S1024x768 .f32) (g bt : FVec Ideal S768 .f32)
    (h : Cert.Pre_finite_inputs.fn (F := Ideal) x p g bt = (fun _ => 1#1)) :
    (∀ i, ∃ r : ℝ, x i = (r : EReal)) ∧ (∀ i, ∃ r : ℝ, p i = (r : EReal)) := by
  -- the precondition's one result, as the conjunction ((all x ∧ all p) ∧ all g) ∧ all bt
  have h0 := congrFun h ValueIdx.ix0
  dsimp only [fn, fn_part1, andi] at h0
  have h1 := IntOp.andi_eq_one.1 h0
  have h2 := IntOp.andi_eq_one.1 h1.1
  have h3 := IntOp.andi_eq_one.1 h2.1
  -- a conjunction over all entries that is 1 is 1 at each entry; there it is the comparison |v| < +∞
  refine ⟨fun i => ?_, fun i => ?_⟩
  · exact real_of_abs_lt_inf (x i) (Host.reduce_andi_all _ _ _ _ _ h3.1 i)
  · exact real_of_abs_lt_inf (p i) (Host.reduce_andi_all _ _ _ _ _ h3.2 i)

end Cert.Finite

end
-- ==== Proof.lean ====
/-
  Position embedding followed by layer normalization: the kernel against its reference, over the extended reals.

  Both programs take activations `x : [64, 1024, 768]`, a position table `pos : [1024, 768]` and two lane vectors
  `gamma, beta : [768]`, and return, at batch entry `b`, position `n` and lane `j`, the normalization over the 768
  lanes of the row `h k = x[b, n, k] + pos[n, k]`, scaled by `gamma[j]` and shifted by `beta[j]` (Proof/Spec.lean).

  * The kernel lists the activations as 65536 rows, cuts them into 16 blocks of 4096 rows and, in each block, meets
    row `r` with table row `r % 1024`; since 4096 is a multiple of 1024 that is the position of the row in the whole
    array. Its result is `outK`: the centred entry TIMES the reciprocal square root of the offset variance
    (Proof/KPay.lean: one entry of a block; Proof/KBlocks.lean: the sixteen blocks tile the array; Proof/KHost.lean and
    Proof/KValue.lean: the re-listings before and after the blocks).
  * The reference looks the position rows up by the indices `0 … 1023`, which are in range, so the lookup is the
    table itself; its result is `outR`: the centred entry DIVIDED BY the square root of the offset variance
    (Proof/RefRun.lean, Proof/RefValue.lean).
  * The two agree where the inputs are finite (Proof/Finite.lean reads that off the precondition): on a row of real
    numbers the offset variance is a positive real `y`, and `c · (√y)⁻¹ = c / √y` (Proof/Algebra.lean). At an
    infinite entry the law is not available, which is why the precondition is used.

  The kernel changes the table's float format before the blocks; on exact values that is the identity, and nothing
  else separates the program as printed from the program read over the extended reals (`preserves` is `True`).
-/
import proofs.«180670_g67765993996428_cont_9to1_m_62_22_alg».proof.Defs
import proofs.«180670_g67765993996428_cont_9to1_m_62_22_alg».proof.Proof.Gen.Kernel
import proofs.«180670_g67765993996428_cont_9to1_m_62_22_alg».proof.Proof.Gen.Kernel.Frame
import proofs.«180670_g67765993996428_cont_9to1_m_62_22_alg».proof.Proof.Gen.KernelIdeal
import proofs.«180670_g67765993996428_cont_9to1_m_62_22_alg».proof.Proof.Gen.KernelIdeal.Frame
import proofs.«180670_g67765993996428_cont_9to1_m_62_22_alg».proof.Proof.Gen.ReferenceIdeal
import proofs.«180670_g67765993996428_cont_9to1_m_62_22_alg».proof.Proof.Gen.Pre_finite_inputs
import proofs.«180670_g67765993996428_cont_9to1_m_62_22_alg».proof.Proof.KValue
import proofs.«180670_g67765993996428_cont_9to1_m_62_22_alg».proof.Proof.RefValue
import proofs.«180670_g67765993996428_cont_9to1_m_62_22_alg».proof.Proof.Algebra
import proofs.«180670_g67765993996428_cont_9to1_m_62_22_alg».proof.Proof.Finite

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RefValue.run m ρ)

/-- No operation of the kernel was rewritten for the reading over the extended reals. -/
theorem preserves : Cert.preserves_Kernel_KernelIdeal := trivial

/-- From finite inputs, and from memories that agree on the four arguments, the kernel ends with `outK` of the
    arguments and the reference with `outR` of them; on real activations and a real table these are one array. -/
theorem algebraic : Cert.algebraic_KernelIdeal_ReferenceIdeal := by
  intro m ρ m' ρ' hpre hagree
  refine ⟨fun c => Cert.LN.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  obtain ⟨hx, hp⟩ := Cert.Finite.real_of_fn _ _ _ _ (hpre c)
  exact (Cert.LN.outK_eq_outR _ _ _ _ hx hp).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
